-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  reducesTo_S_S_d : S_.ReducesTo [] S_

variable [Facts]

def fn_part2 {F : FTy → Type} [FloatOps F] (main_arg8 : FVec F S_ .f32) (main_v33 : IVec S_ 1) : IVec S_ 1 :=
  let main_v34 : FVec F S_ .f32 := Host.absf main_arg8
  let main_cst_12 : FVec F S_ .f32 := constant S_ .f32 0x7F800000#32
  let main_v35 : IVec S_ 1 := cmpf .olt main_v34 main_cst_12
  let main_c_13 : IVec S_ 1 := constantI S_ 1 1#1
  let main_v36 : IVec S_ 1 := (fun x v => Host.reduce IntOp.andi x v reducesTo_S_S_d h_S_) main_v35 main_c_13
  let main_v37 : IVec S_ 1 := andi main_v33 main_v36
  main_v37

def fn_part1 {F : FTy → Type} [FloatOps F] (main_arg5 : FVec F S128x128 .f32) (main_arg6 : FVec F S128 .f32) (main_arg7 : FVec F S128x128 .f32) (main_arg8 : FVec F S_ .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S_ .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩
abbrev S1x1600000 : Shape := ⟨2, ![1, 1600000]⟩
abbrev S1600000 : Shape := ⟨1, ![1600000]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S1x1 : Shape := ⟨2, ![1, 1]⟩
abbrev S5000x128 : Shape := ⟨2, ![5000, 128]⟩
abbrev S5000x1 : Shape := ⟨2, ![5000, 1]⟩

abbrev nBuf : Space → Nat
  | .hbm => 57
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S_, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S1x128, .f32⟩
  | .hbm, ⟨40, _⟩ => ⟨S1x1, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S1x128, .f32⟩
  | .hbm, ⟨56, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S128x128, .f32⟩
  | .local _ .vmem, ⟨9, _⟩ => ⟨S1x1, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_c_3 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem6_1 : DmaSem sig := 22

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x128 : S_.BroadcastsInDim S100000x128 (![] : Fin 0 → Fin S100000x128.rank)
  shapeCasts_S128_S1x128 : S128.ShapeCasts S1x128
  shapeCasts_S_S1x1 : S_.ShapeCasts S1x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_1_0_0_n_n_wf : DotDims.WF S5000x128 S128x128 S5000x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S100000x128.size a
  hwx0_7 : ∀ i : grid0.Coords, EltTy.bits .f32 = 32 ∨ (Rect.block (s := S100000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_1_0_0_n_n : DotDims S5000x128 S128x128 S5000x128 where
  lhsContracting := [1]
  rhsContracting := [1]
  lhsNonContracting := [0]
  rhsNonContracting := [0]
  lhsBatch := []
  rhsBatch := []
  wf := dot_S5000x128_S128x128_S5000x128_1_1_0_0_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v25) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S_, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S1600000, .f32⟩
  | .hbm, ⟨28, _⟩ => ⟨S_, .f32⟩
  | .hbm, ⟨29, _⟩ => ⟨S100000, .f32⟩
  | .hbm, ⟨30, _⟩ => ⟨S1600000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000x1, .f32⟩
  | .hbm, ⟨36, _⟩ => ⟨S100000x128, .f32⟩
  | .hbm, ⟨37, _⟩ => ⟨S100000x128, .f32⟩
  | .hbm, ⟨38, _⟩ => ⟨S128x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S128x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .i1⟩
  | .hbm, ⟨49, _⟩ => ⟨S100000x128, .f32⟩
  | .hbm, ⟨50, _⟩ => ⟨S100000x128, .f32⟩
  | .hbm, ⟨51, _⟩ => ⟨S100000x128, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S_, .f32⟩
  | .hbm, ⟨66, _⟩ => ⟨S1600000, .f32⟩
  | .hbm, ⟨67, _⟩ => ⟨S_, .f32⟩
  | .hbm, ⟨68, _⟩ => ⟨S100000, .f32⟩
  | .hbm, ⟨69, _⟩ => ⟨S1600000x1, .i32⟩
  | .hbm, ⟨70, _⟩ => ⟨S100000, .f32⟩
  | .hbm, ⟨71, _⟩ => ⟨S_, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S128x128, .f32⟩
  | .hbm, ⟨78, _⟩ => ⟨S100000x128, .f32⟩
  | .hbm, ⟨79, _⟩ => ⟨S1x128, .f32⟩
  | .hbm, ⟨80, _⟩ => ⟨S100000x128, .f32⟩
  | .hbm, ⟨81, _⟩ => ⟨S100000x128, .f32⟩
  | .hbm, ⟨82, _⟩ => ⟨S128x128, .f32⟩
  | .hbm, ⟨83, _⟩ => ⟨S100000x128, .f32⟩
  | .hbm, ⟨84, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_5 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_8 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The idealized kernel program's run with every buffer named.

  The program is four segments: the host operations that prepare the first layer's operands, the first layer's
  region, the host operations that prepare the second layer's neighbour sums from the first layer's result, and the
  second layer's region. Every weakly fair execution terminates without a fault, and every buffer that is not
  scoped to a region ends at the last segment boundary's contents: the fold of the four segments over the launch
  memory. The frame (arguments unchanged) and the value of the result are both read off this one statement.
-/
import proofs.«123286_j5995774345966_2_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with every unscoped buffer at the
    contents the four segments fold out of the launch memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The result buffer after the run is the second region's output array after its last write-back. -/
theorem result_eq (r : PUnit × MemSt nD τ sig (Elt F))
    (h : ∀ c : Dev nD, ∀ b ∈ Pipeline.ucRefs τ sig, r.2.mem (((c : Thread nD τ)).1, b) = W4 m ρ c b) (c : Dev nD) :
    r.2.mem ((c : Thread nD τ).loc main_v37) = (dat1 (V3 m ρ) c).arrAt 6 cfg1.N :=
  (h c _ (mem_uc main_v37 (by decide))).trans (W4_arr m ρ c 6)

/-- The arguments end as launched. -/
theorem kept (r : PUnit × MemSt nD τ sig (Elt F))
    (h : ∀ c : Dev nD, ∀ b ∈ Pipeline.ucRefs τ sig, r.2.mem (((c : Thread nD τ)).1, b) = W4 m ρ c b) (c : Dev nD) :
    r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8) :=
  ⟨(h c _ (mem_uc main_arg0 (by decide))).trans (W4_main_arg0 m ρ c),
   (h c _ (mem_uc main_arg1 (by decide))).trans (W4_main_arg1 m ρ c),
   (h c _ (mem_uc main_arg2 (by decide))).trans (W4_main_arg2 m ρ c),
   (h c _ (mem_uc main_arg3 (by decide))).trans (W4_main_arg3 m ρ c),
   (h c _ (mem_uc main_arg4 (by decide))).trans (W4_main_arg4 m ρ c),
   (h c _ (mem_uc main_arg5 (by decide))).trans (W4_main_arg5 m ρ c),
   (h c _ (mem_uc main_arg6 (by decide))).trans (W4_main_arg6 m ρ c),
   (h c _ (mem_uc main_arg7 (by decide))).trans (W4_main_arg7 m ρ c),
   (h c _ (mem_uc main_arg8 (by decide))).trans (W4_main_arg8 m ρ c)⟩

end Cert.KernelIdeal.Run

end
-- ==== Proof.LibLayout.lean ====
/-
  Shape casts that add or drop a UNIT axis somewhere other than the front, and broadcasts of a unit axis, read at an
  index given by coordinates: the forms a reduction with kept dimensions meets ([a] ↔ [a,1], [a,b] ↔ [a,1,b],
  [a,b] → [a,b,1], [a,b,c] → [a,b,c,1], [a,b] → [a,1,1,b]; [a,1] → [a,b], [a,b,1] → [a,b,c], [a,b,c,1] → [a,b,c,d],
  [a,1,1,d] → [a,b,c,d]). A shape cast keeps the row-major position, and a unit axis contributes nothing to it; a
  broadcast reads coordinate 0 on the operand's unit axes and the result's coordinate elsewhere.
-/
import Idealize.ShloMosaic.Lib.Pipeline.Value
import Idealize.ShloMosaic.Lib.ValueIdx

namespace Cert.LibLayout

open Idealize.ShloMosaic Idealize.ShloMosaic.ValueIdx

variable {α : Type}

/-! ## Shape casts -/

/-- `[a] → [a,1]`: at (p, u) the operand at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

/-- `[a,b] → [a,1,b]`: at (p, u, q) the operand at (p, q). -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_two, Shape.rowMajor_val_three]
    show p.val * b + q.val = (p.val * 1 + u.val) * b + q.val
    rw [hu, Nat.mul_one, Nat.add_zero])

/-- `[a,1,b] → [a,b]`: at (p, q) the operand at (p, 0, q). -/
theorem shapeCast_a1b_ab_apply {a b : ℕ} (x : (⟨3, ![a, 1, b]⟩ : Shape).Idx → α)
    (h : (⟨3, ![a, 1, b]⟩ : Shape).ShapeCasts ⟨2, ![a, b]⟩) (p : Fin a) (q : Fin b) :
    shapeCast ⟨2, ![a, b]⟩ x h (ix2 p q) = x (ix3 p (0 : Fin 1) q) :=
  shapeCast_apply x h _ _ (by
    rw [Shape.rowMajor_val_three, Shape.rowMajor_val_two]
    show (p.val * 1 + 0) * b + q.val = p.val * b + q.val
    rw [Nat.mul_one, Nat.add_zero])

/-- `[a,b] → [a,b,1]`: at (p, q, u) the operand at (p, q). -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- `[a,b,c] → [a,b,c,1]`: at (p, q, r, u) the operand at (p, q, r). -/
theorem shapeCast_abc_abc1_apply {a b c : ℕ} (x : (⟨3, ![a, b, c]⟩ : Shape).Idx → α)
    (h : (⟨3, ![a, b, c]⟩ : Shape).ShapeCasts ⟨4, ![a, b, c, 1]⟩) (p : Fin a) (q : Fin b) (r : Fin c) (u : Fin 1) :
    shapeCast ⟨4, ![a, b, c, 1]⟩ x h (ix4 p q r u) = x (ix3 p q r) :=
  shapeCast_apply x h _ _ (by
    have hu : u.val = 0 := by omega
    rw [Shape.rowMajor_val_three, Shape.rowMajor_val_four]
    show (p.val * b + q.val) * c + r.val = ((p.val * b + q.val) * c + r.val) * 1 + u.val
    rw [hu, Nat.mul_one, Nat.add_zero])

/-- `[a,b] → [a,1,1,b]`: at (p, u, v, q) the operand at (p, q). -/
theorem shapeCast_ab_a11b_apply {a b : ℕ} (x : (⟨2, ![a, b]⟩ : Shape).Idx → α)
    (h : (⟨2, ![a, b]⟩ : Shape).ShapeCasts ⟨4, ![a, 1, 1, b]⟩) (p : Fin a) (u v : Fin 1) (q : Fin b) :
    shapeCast ⟨4, ![a, 1, 1, b]⟩ x h (ix4 p u v q) = x (ix2 p q) :=
  shapeCast_apply x h _ _ (by
    have hu : u.val = 0 := by omega
    have hv : v.val = 0 := by omega
    rw [Shape.rowMajor_val_two, Shape.rowMajor_val_four]
    show p.val * b + q.val = ((p.val * 1 + u.val) * 1 + v.val) * b + q.val
    simp only [hu, hv, Nat.mul_one, Nat.add_zero])

/-! ## Broadcasts of unit axes -/

/-- `[a,1] → [a,b]`: at (p, q) the operand's entry of row p. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- `[a,b,1] → [a,b,c]`: at (p, q, r) the operand's entry of (p, q). -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- `[a,b,c,1] → [a,b,c,d]`: at (p, q, r, s) the operand's entry of (p, q, r). -/
theorem broadcastTo_abc1_abcd_apply {a b c d : ℕ} (v : (⟨4, ![a, b, c, 1]⟩ : Shape).Idx → α)
    (h : (⟨4, ![a, b, c, 1]⟩ : Shape).Broadcasts ⟨4, ![a, b, c, d]⟩) (p : Fin a) (q : Fin b) (r : Fin c) (s : Fin d) :
    broadcastTo ⟨4, ![a, b, c, d]⟩ v h (ix4 p q r s) = v (ix4 p q r (0 : Fin 1)) := by
  refine broadcastTo_apply v h (ix4 p q r s) (ix4 p q r (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show r.val = if c = 1 then 0 else r.val
    split
    · have := r.isLt; omega
    · rfl
  | ⟨3, _⟩ => rfl

/-- `[a,1,1,d] → [a,b,c,d]`: at (p, q, r, s) the operand's entry of (p, s). -/
theorem broadcastTo_a11d_abcd_apply {a b c d : ℕ} (v : (⟨4, ![a, 1, 1, d]⟩ : Shape).Idx → α)
    (h : (⟨4, ![a, 1, 1, d]⟩ : Shape).Broadcasts ⟨4, ![a, b, c, d]⟩) (p : Fin a) (q : Fin b) (r : Fin c) (s : Fin d) :
    broadcastTo ⟨4, ![a, b, c, d]⟩ v h (ix4 p q r s) = v (ix4 p (0 : Fin 1) (0 : Fin 1) s) := by
  refine broadcastTo_apply v h (ix4 p q r s) (ix4 p (0 : Fin 1) (0 : Fin 1) s) fun ax => ?_
  match ax with
  | ⟨0, _⟩ =>
    show p.val = if a = 1 then 0 else p.val
    split
    · have := p.isLt; omega
    · rfl
  | ⟨1, _⟩ => rfl
  | ⟨2, _⟩ => rfl
  | ⟨3, _⟩ =>
    show s.val = if d = 1 then 0 else s.val
    split
    · have := s.isLt; omega
    · rfl

end Cert.LibLayout
-- ==== Proof.SageSpec.lean ====
/-
  Two GraphSAGE layers with mean aggregation, read as functions of whole arrays over the extended reals.

  A layer sends node features `feat` (100000 rows of 128) to
      out[r, j] = (Σ_k mean[r, k] · W_l[j, k] + b[j]) + Σ_k feat[r, k] · W_r[j, k],
  where `mean` is the row-wise scaling of the neighbour sums `agg = seg feat` by the in-degree of the row,
  clamped below by one. The first layer is followed by a parametric rectifier with one slope `a`:
  an entry `s` stays `s` when `s ≥ 0` and becomes `a · s` otherwise.

  The neighbour sum `seg` (gather the source rows, add them into the destination rows) and the in-degree
  `cnt` are kept abstract: nothing below depends on which rows an edge list selects.

  The one law: scaling a row by the reciprocal `1 / c` is dividing it by `c`, for every extended real
  numerator, whenever `c ≠ 0`; and `c = max cnt 1` is at least one, hence not zero. No finiteness of the
  features or weights is used: a product with `c⁻¹` is the same product on both sides.
-/
import Idealize.ShloMosaic.PureOps.Ideal
import Idealize.ShloMosaic.PureOps.Ideal.Laws
import Idealize.ShloMosaic.Lib.ValueIdx
import Idealize.ShloMosaic.Lib.IdealHost

noncomputable section

namespace Cert.Sage

open Idealize.ShloMosaic Idealize.ShloMosaic.ValueIdx

/-- Node features: 100000 rows of 128. -/
abbrev SN128 : Shape := ⟨2, ![100000, 128]⟩
/-- A weight matrix, stored output-major: entry (j, k) multiplies input column k into output column j. -/
abbrev SW : Shape := ⟨2, ![128, 128]⟩

/-- The single-precision word of 1.0, as an extended real. -/
abbrev one : EReal := Ideal.ofBits .f32 0x3F800000#32
/-- The single-precision word of 0.0, as an extended real. -/
abbrev zero : EReal := Ideal.ofBits .f32 0x00000000#32

theorem one_eq : one = 1 := Ideal.ofBits_one_f32

/-- A layer's linear part: the aggregated rows through `W_l` plus the bias, then the node's own row through
    `W_r`, added in that order. -/
def lin (mean feat : SN128.Idx → EReal) (wl wr : SW.Idx → EReal) (b : Fin 128 → EReal) : SN128.Idx → EReal :=
  fun i => ((∑ k : Fin 128, mean (ix2 (i 0) k) * wl (ix2 (i 1) k)) + b (i 1))
    + ∑ k : Fin 128, feat (ix2 (i 0) k) * wr (ix2 (i 1) k)

/-- The parametric rectifier with slope `a`, entry by entry. -/
def prelu (a : EReal) (s : SN128.Idx → EReal) : SN128.Idx → EReal :=
  fun i => Scalar.select (FloatOps.cmpf (F := Ideal) (φ := .f32) .oge (s i) zero) (s i) (a * s i)

/-- Row `r` of the neighbour sums scaled by a factor `ρ r`. -/
def meanMul (agg : SN128.Idx → EReal) (ρ : Fin 100000 → EReal) : SN128.Idx → EReal :=
  fun i => agg i * ρ (i 0)

/-- Row `r` of the neighbour sums divided by a divisor `c r`. -/
def meanDiv (agg : SN128.Idx → EReal) (c : Fin 100000 → EReal) : SN128.Idx → EReal :=
  fun i => Ideal.div (agg i) (c (i 0))

/-- The clamped in-degree is not zero: it is at least one. -/
theorem max_one_ne_zero (x : EReal) : max x one ≠ 0 := by
  have h : (0 : EReal) < max x one := lt_of_lt_of_le (by rw [one_eq]; exact zero_lt_one) (le_max_right x one)
  exact ne_of_gt h

/-- THE LAW. Multiplying by the reciprocal of a nonzero divisor is dividing by it, whatever the numerator:
    both are the product with the divisor's inverse, since `1 · c⁻¹ = c⁻¹`. -/
theorem mul_div_one (x c : EReal) (hc : c ≠ 0) : x * Ideal.div one c = Ideal.div x c := by
  unfold Ideal.div
  rw [if_neg hc, if_neg hc, one_eq, one_mul]

/-- Scaling every row by the reciprocal of its clamped in-degree is dividing it by that in-degree. -/
theorem meanMul_eq_meanDiv (agg : SN128.Idx → EReal) (cnt : Fin 100000 → EReal) :
    meanMul agg (fun r => Ideal.div one (max (cnt r) one)) = meanDiv agg (fun r => max (cnt r) one) := by
  funext i
  exact mul_div_one (agg i) (max (cnt (i 0)) one) (max_one_ne_zero _)

/-- Two layers, the mean taken by multiplying with a precomputed reciprocal `ρ` (computed once, shared by both layers). -/
def netMul (seg : (SN128.Idx → EReal) → SN128.Idx → EReal) (ρ : Fin 100000 → EReal) (x : SN128.Idx → EReal)
    (w1l w1r w2l w2r : SW.Idx → EReal) (b1 b2 : Fin 128 → EReal) (a : EReal) : SN128.Idx → EReal :=
  lin (meanMul (seg (prelu a (lin (meanMul (seg x) ρ) x w1l w1r b1))) ρ) (prelu a (lin (meanMul (seg x) ρ) x w1l w1r b1)) w2l w2r b2

/-- Two layers, the mean taken by dividing by the clamped in-degree `c`. -/
def netDiv (seg : (SN128.Idx → EReal) → SN128.Idx → EReal) (c : Fin 100000 → EReal) (x : SN128.Idx → EReal)
    (w1l w1r w2l w2r : SW.Idx → EReal) (b1 b2 : Fin 128 → EReal) (a : EReal) : SN128.Idx → EReal :=
  lin (meanDiv (seg (prelu a (lin (meanDiv (seg x) c) x w1l w1r b1))) c) (prelu a (lin (meanDiv (seg x) c) x w1l w1r b1)) w2l w2r b2

/-- The two networks are one function: the law, once per layer. -/
theorem netMul_eq_netDiv (seg : (SN128.Idx → EReal) → SN128.Idx → EReal) (cnt : Fin 100000 → EReal) (x : SN128.Idx → EReal)
    (w1l w1r w2l w2r : SW.Idx → EReal) (b1 b2 : Fin 128 → EReal) (a : EReal) :
    netMul seg (fun r => Ideal.div one (max (cnt r) one)) x w1l w1r w2l w2r b1 b2 a
      = netDiv seg (fun r => max (cnt r) one) x w1l w1r w2l w2r b1 b2 a := by
  unfold netMul netDiv
  rw [meanMul_eq_meanDiv, meanMul_eq_meanDiv]

end Cert.Sage

end
-- ==== Proof.HostDefs.lean ====
/-
  The host's part of both layers, as functions of the edge list.

  The edge list is a 2 × 1600000 table of node numbers: row 0 the sources, row 1 the destinations. The neighbour sum
  `seg feat` of a feature array gathers the source rows (a negative number first wrapped by adding 100000) and adds
  them into the destination rows of a zero array; the in-degree `cnt` adds ones into the destinations of a zero
  vector; the reciprocal column `inv` is 1 / max(cnt, 1), reshaped to one column. Only `inv` is ever read at an
  index, and there the in-degree entry is a variable: the gather and the scatter-add are never opened.
-/
import proofs.«123286_j5995774345966_2_alg».proof.Proof.Gen.KernelIdeal
import proofs.«123286_j5995774345966_2_alg».proof.Proof.LibLayout
import proofs.«123286_j5995774345966_2_alg».proof.Proof.SageSpec
import Idealize.ShloMosaic.Lib.ValueLayout
import Idealize.ShloMosaic.Lib.Pipeline.Value

noncomputable section

namespace Cert.KernelIdeal.Fold

open Idealize.ShloMosaic Idealize.ShloMosaic.ValueIdx Cert.KernelIdeal Cert.KernelIdeal.Gen

/-! ## The shared host chain, as functions of the edge list -/

/-- The sources, one per edge. -/
def src (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000

/-- The destinations, one per edge. -/
def dst (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

/-- The sources with a negative number wrapped around by the row count. -/
def srcWrapped (e : (⟨S2x1600000, .i32⟩ : BufTy).Contents (Elt Ideal)) : (⟨S1600000, .i32⟩ : BufTy).Contents (Elt Ideal) :=
  select (cmpi .slt (src e) (broadcastInDim S1600000 ![] bcast_S_S1600000 (constantI S_ 32 0#32)))
    (addi (src e) (broadcastInDim S1600000 ![] bcast_S_S1600000 (constantI S_ 32 100000#32))) (src e)

/-- The neighbour sum of a feature array: source rows gathered, added into the destination rows of zeros. -/
def seg (e : (⟨S2x1600000, .i32⟩ : BufTy).Contents (Elt Ideal)) (feat : (⟨S100000x128, .f32⟩ : BufTy).Contents (Elt Ideal)) :
    (⟨S100000x128, .f32⟩ : BufTy).Contents (Elt Ideal) :=
  Host.scatterAdd (F := Ideal) (φ := .f32) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 (dst e))
    (Host.gather (α := Ideal .f32) gather_S100000x128_S1600000x1_S1600000x128_1_0_n_n_0_1_1128 feat
      (broadcastInDim S1600000x1 ![0] bcast_S1600000_S1600000x1_0 (srcWrapped e)))

/-- The in-degree of every node: ones added into the destinations of zeros. -/
def cnt (e : (⟨S2x1600000, .i32⟩ : BufTy).Contents (Elt Ideal)) : (⟨S100000, .f32⟩ : BufTy).Contents (Elt Ideal) :=
  Host.scatterAdd (F := Ideal) (φ := .f32) scatter_S100000_S1600000x1_S1600000_n_0_0_1
    (broadcastInDim S100000 ![] bcast_S_S100000 (constant (F := Ideal) S_ .f32 0x00000000#32))
    (broadcastInDim S1600000x1 ![0] bcast_S1600000_S1600000x1_0 (dst e))
    (broadcastInDim S1600000 ![] bcast_S_S1600000 (constant (F := Ideal) S_ .f32 0x3F800000#32))

/-- The reciprocal of the clamped in-degree, as one column. -/
def inv (e : (⟨S2x1600000, .i32⟩ : BufTy).Contents (Elt Ideal)) : (⟨S100000x1, .f32⟩ : BufTy).Contents (Elt Ideal) :=
  shapeCast S100000x1
    (Host.divf (F := Ideal) (φ := .f32) (broadcastInDim S100000 ![] bcast_S_S100000 (constant (F := Ideal) S_ .f32 0x3F800000#32))
      (maximumf (F := Ideal) (φ := .f32) (cnt e) (broadcastInDim S100000 ![] bcast_S_S100000 (constant (F := Ideal) S_ .f32 0x3F800000#32))))
    shapeCasts_S100000_S100000x1

/-- The vector of ones holds the word of 1.0 at every index. -/
theorem ones_apply (i : S100000.Idx) :
    broadcastInDim S100000 ![] bcast_S_S100000 (constant (F := Ideal) S_ .f32 0x3F800000#32) i = Cert.Sage.one :=
  (broadcastInDim_apply _ bcast_S_S100000 (constant (F := Ideal) S_ .f32 0x3F800000#32) i ix0 (fun a => a.elim0)).trans rfl

/-- The reciprocal column of ANY in-degree vector, at row r: one over the entry clamped below by one. -/
theorem recip_apply (C : (⟨S100000, .f32⟩ : BufTy).Contents (Elt Ideal)) (r : Fin 100000) :
    shapeCast S100000x1
        (Host.divf (F := Ideal) (φ := .f32) (broadcastInDim S100000 ![] bcast_S_S100000 (constant (F := Ideal) S_ .f32 0x3F800000#32))
          (maximumf (F := Ideal) (φ := .f32) C (broadcastInDim S100000 ![] bcast_S_S100000 (constant (F := Ideal) S_ .f32 0x3F800000#32))))
        shapeCasts_S100000_S100000x1 (ix2 r (0 : Fin 1))
      = Ideal.div Cert.Sage.one (max (C (ix1 r)) Cert.Sage.one) := by
  rw [Cert.LibLayout.shapeCast_a_a1_apply]
  unfold Host.divf maximumf
  rw [ones_apply]
  rfl

/-- The reciprocal column at row r is one over the clamped in-degree of r. -/
theorem inv_apply (e : (⟨S2x1600000, .i32⟩ : BufTy).Contents (Elt Ideal)) (r : Fin 100000) :
    inv e (ix2 r (0 : Fin 1)) = Ideal.div Cert.Sage.one (max (cnt e (ix1 r)) Cert.Sage.one) := by
  unfold inv
  exact recip_apply (cnt e) r

/-- The bias of a layer, read off its vector. -/
def biasOf (b : (⟨S128, .f32⟩ : BufTy).Contents (Elt Ideal)) : Fin 128 → EReal := fun j => b (ix1 j)

end Cert.KernelIdeal.Fold

end
-- ==== Proof.Entry0a.lean ====
/-
  After the first stretch of host operations: the weights, biases and slope are as launched, and the two
  columns of the edge list are its two rows.
-/
import proofs.«123286_j5995774345966_2_alg».proof.Proof.Gen.KernelIdeal.Frame
import proofs.«123286_j5995774345966_2_alg».proof.Proof.HostDefs
import Idealize.ShloMosaic.Lib.StableHlo.Run

set_option maxRecDepth 16384

noncomputable section

namespace Cert.KernelIdeal.Fold

open Idealize.ShloMosaic Idealize.ShloMosaic.TcCoe Idealize.ShloMosaic.ValueIdx Idealize.SL.Sem Idealize.ShloMosaic.StableHlo
open Cert.KernelIdeal Cert.KernelIdeal.Gen
open Idealize.ShloMosaic.Pipeline (Dat)

variable (m : (ℓ : Loc nD τ sig) → Buf (Elt Ideal) ℓ) (ρ : Dev nD → PrngReg) (c : Dev nD)
theorem W1_arg0 : W1 m ρ c (Proc.devRef .tc main_arg0) = m ((c : Thread nD τ).loc main_arg0) := by
  after_results_simp <;> rfl
theorem W1_arg2 : W1 m ρ c (Proc.devRef .tc main_arg2) = m ((c : Thread nD τ).loc main_arg2) := by
  after_results_simp <;> rfl
theorem W1_arg4 : W1 m ρ c (Proc.devRef .tc main_arg4) = m ((c : Thread nD τ).loc main_arg4) := by
  after_results_simp <;> rfl
theorem W1_arg5 : W1 m ρ c (Proc.devRef .tc main_arg5) = m ((c : Thread nD τ).loc main_arg5) := by
  after_results_simp <;> rfl
theorem W1_arg6 : W1 m ρ c (Proc.devRef .tc main_arg6) = m ((c : Thread nD τ).loc main_arg6) := by
  after_results_simp <;> rfl
theorem W1_arg7 : W1 m ρ c (Proc.devRef .tc main_arg7) = m ((c : Thread nD τ).loc main_arg7) := by
  after_results_simp <;> rfl
theorem W1_v1 : W1 m ρ c (Proc.devRef .tc main_v1) = src (m ((c : Thread nD τ).loc main_arg1)) := by
  after_results_simp <;> rfl
theorem W1_v3 : W1 m ρ c (Proc.devRef .tc main_v3) = dst (m ((c : Thread nD τ).loc main_arg1)) := by
  after_results_simp <;> rfl

end Cert.KernelIdeal.Fold

end
-- ==== Proof.Entry0b.lean ====
/-
  After the first stretch of host operations: the first region's neighbour sums are `seg` of the node features,
  its reciprocal column is `inv`, and the bias and the slope arrive reshaped to a row and a cell.
-/
import proofs.«123286_j5995774345966_2_alg».proof.Proof.Gen.KernelIdeal.Frame
import proofs.«123286_j5995774345966_2_alg».proof.Proof.HostDefs
import Idealize.ShloMosaic.Lib.StableHlo.Run

set_option maxRecDepth 16384

noncomputable section

namespace Cert.KernelIdeal.Fold

open Idealize.ShloMosaic Idealize.ShloMosaic.TcCoe Idealize.ShloMosaic.ValueIdx Idealize.SL.Sem Idealize.ShloMosaic.StableHlo
open Cert.KernelIdeal Cert.KernelIdeal.Gen
open Idealize.ShloMosaic.Pipeline (Dat)

variable (m : (ℓ : Loc nD τ sig) → Buf (Elt Ideal) ℓ) (ρ : Dev nD → PrngReg) (c : Dev nD)
theorem W1_v22 : W1 m ρ c (Proc.devRef .tc main_v22)
    = seg (m ((c : Thread nD τ).loc main_arg1)) (m ((c : Thread nD τ).loc main_arg0)) := by
  after_results_simp <;> rfl
theorem W1_v12 : W1 m ρ c (Proc.devRef .tc main_v12) = inv (m ((c : Thread nD τ).loc main_arg1)) := by
  after_results_simp <;> rfl
theorem W1_v23 : W1 m ρ c (Proc.devRef .tc main_v23)
    = shapeCast S1x128 (m ((c : Thread nD τ).loc main_arg3)) shapeCasts_S128_S1x128 := by
  after_results_simp <;> rfl
theorem W1_v24 : W1 m ρ c (Proc.devRef .tc main_v24)
    = shapeCast S1x1 (m ((c : Thread nD τ).loc main_arg8)) shapeCasts_S_S1x1 := by
  after_results_simp <;> rfl

end Cert.KernelIdeal.Fold

end
-- ==== Proof.Body.lean ====
/-
  What one grid step computes, entry by entry, at the exact instance.

  A step holds a block of 5000 node rows: the rows' own features `x`, their neighbour sums `agg`, the column
  `inv` of reciprocal clamped in-degrees, the two weight matrices, the bias row and (first layer) the slope. Entry
  (p, q) of what it stores is
      (Σ_k (agg[p, k] · inv[p, 0]) · W_l[q, k] + b[0, q]) + Σ_k x[p, k] · W_r[q, k],
  through the rectifier in the first layer. Changes of float format are the identity here, a matrix product into a
  zero accumulator is the plain sum over the contracted axis (both operands contract their second axis, so no
  transpose appears), and the broadcasts read the unit axis at coordinate 0.
-/
import proofs.«123286_j5995774345966_2_alg».proof.Proof.Gen.KernelIdeal.Skeleton
import proofs.«123286_j5995774345966_2_alg».proof.Proof.LibLayout
import proofs.«123286_j5995774345966_2_alg».proof.Proof.SageSpec
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Idealize.ShloMosaic Idealize.ShloMosaic.ValueIdx Cert.KernelIdeal Cert.KernelIdeal.Gen

/-- The contraction of both matrix products of a step: left rows against right rows. -/
abbrev DD := dot_S5000x128_S128x128_S5000x128_1_1_0_0_n_n

theorem lhs_0 (i : S5000x128.Idx) (k : DD.contr.Idx) : (DD.lhsIdx i k 0).val = (i 0).val := by
  unfold DotDims.lhsIdx
  rw [dif_neg (show ¬(0 : Fin S5000x128.rank) ∈ DD.lhsBatch by decide), dif_pos (show (0 : Fin S5000x128.rank) ∈ DD.lhsNonContracting by decide)]
  rfl
theorem lhs_1 (i : S5000x128.Idx) (k : DD.contr.Idx) : (DD.lhsIdx i k 1).val = (k ⟨0, by decide⟩).val :=
  DD.lhsIdx_val_of_single rfl i k
theorem rhs_0 (i : S5000x128.Idx) (k : DD.contr.Idx) : (DD.rhsIdx i k 0).val = (i 1).val := by
  unfold DotDims.rhsIdx
  rw [dif_neg (show ¬(0 : Fin S128x128.rank) ∈ DD.rhsBatch by decide), dif_pos (show (0 : Fin S128x128.rank) ∈ DD.rhsNonContracting by decide)]
  rfl
theorem rhs_1 (i : S5000x128.Idx) (k : DD.contr.Idx) : (DD.rhsIdx i k 1).val = (k ⟨0, by decide⟩).val :=
  DD.rhsIdx_val_of_single rfl i k

/-- A step's matrix product into the zero accumulator, at (p, q): row p of the left operand against row q of the right. -/
theorem matmul_at (l : FVec Ideal S5000x128 .bf16) (r : FVec Ideal S128x128 .bf16) (p : Fin 5000) (q : Fin 128) :
    matmul DD none l r (constant (F := Ideal) S5000x128 .f32 0x00000000#32) (ix2 p q)
      = ∑ k : Fin 128, l (ix2 p k) * r (ix2 q k) := by
  refine (Ideal.matmul_constant_zero_apply DD none l r (ix2 p q)).trans ?_
  rw [← Equiv.sum_comp (contrEquiv1 DD 128 rfl rfl).symm]
  refine Finset.sum_congr rfl fun k _ => ?_
  have hk := contrEquiv1_symm_val DD 128 rfl rfl k
  have el : DD.lhsIdx (ix2 p q) ((contrEquiv1 DD 128 rfl rfl).symm k) = ix2 p k := funext fun a => Fin.ext (by
    match a with
    | ⟨0, _⟩ => exact lhs_0 _ _
    | ⟨1, _⟩ => exact (lhs_1 _ _).trans hk)
  have er : DD.rhsIdx (ix2 p q) ((contrEquiv1 DD 128 rfl rfl).symm k) = ix2 q k := funext fun a => Fin.ext (by
    match a with
    | ⟨0, _⟩ => exact rhs_0 _ _
    | ⟨1, _⟩ => exact (rhs_1 _ _).trans hk)
  rw [el, er]

/-- A step's linear part at (p, q), from the blocks it loads. -/
def linBlk (x agg : S5000x128.Idx → EReal) (inv : S5000x1.Idx → EReal) (wl wr : S128x128.Idx → EReal)
    (b : S1x128.Idx → EReal) (p : Fin 5000) (q : Fin 128) : EReal :=
  ((∑ k : Fin 128, (agg (ix2 p k) * inv (ix2 p (0 : Fin 1))) * wl (ix2 q k)) + b (ix2 (0 : Fin 1) q))
    + ∑ k : Fin 128, x (ix2 p k) * wr (ix2 q k)

/-- The scaled neighbour sums a step feeds its first product, at (p, k). -/
theorem scaled_at (agg : FVec Ideal S5000x128 .f32) (inv : FVec Ideal S5000x1 .f32) (p : Fin 5000) (k : Fin 128) :
    mulf (shapeCast S5000x128 agg shapeCasts_S5000x128_S5000x128)
        (broadcastTo S5000x128 (shapeCast S5000x1 inv shapeCasts_S5000x1_S5000x1) broadcasts_S5000x1_S5000x128) (ix2 p k)
      = agg (ix2 p k) * inv (ix2 p (0 : Fin 1)) := by
  rw [mulf_apply, shapeCast_self, Cert.LibLayout.broadcastTo_a1_ab_apply, shapeCast_self]

/-- The bias row spread over the block, at (p, q). -/
theorem bias_at (b : FVec Ideal S1x128 .f32) (p : Fin 5000) (q : Fin 128) :
    broadcastTo S5000x128 (shapeCast S1x128 b shapeCasts_S1x128_S1x128) broadcasts_S1x128_S5000x128 (ix2 p q)
      = b (ix2 (0 : Fin 1) q) := by
  rw [broadcastTo_1b_ab_apply, shapeCast_self]

/-- The second layer's step stores its linear part. -/
theorem pay1_at (v0 v3 : Vec Ideal S5000x128 .f32) (v5 : Vec Ideal S5000x1 .f32) (v10 v12 : Vec Ideal S128x128 .f32)
    (v16 : Vec Ideal S1x128 .f32) (p : Fin 5000) (q : Fin 128) :
    k1_pay1 (F := Ideal) v0 v3 v5 v10 v12 v16 (ix2 p q) = linBlk v0 v3 v5 v10 v12 v16 p q := by
  unfold k1_pay1 linBlk
  rw [addf_apply, addf_apply]
  refine congrArg₂ (· + ·) (congrArg₂ (· + ·) ?_ (bias_at v16 p q)) ?_
  · refine (matmul_at _ _ p q).trans (Finset.sum_congr rfl fun k _ => ?_)
    rw [truncf_apply, truncf_apply]
    exact congrArg (· * v10 (ix2 q k)) (scaled_at v3 v5 p k)
  · refine (matmul_at _ _ p q).trans (Finset.sum_congr rfl fun k _ => ?_)
    rw [truncf_apply, truncf_apply, shapeCast_self]

/-- The first layer's step stores its linear part through the rectifier, the slope read off its 1 × 1 block. -/
theorem pay0_at (v0 v2 : Vec Ideal S5000x128 .f32) (v4 : Vec Ideal S5000x1 .f32) (v9 v11 : Vec Ideal S128x128 .f32)
    (v15 : Vec Ideal S1x128 .f32) (v20 : Vec Ideal S1x1 .f32) (p : Fin 5000) (q : Fin 128) :
    k0_pay1 (F := Ideal) v0 v2 v4 v9 v11 v15 v20 (ix2 p q)
      = Scalar.select (FloatOps.cmpf (F := Ideal) (φ := .f32) .oge (linBlk v0 v2 v4 v9 v11 v15 p q) Cert.Sage.zero)
          (linBlk v0 v2 v4 v9 v11 v15 p q) (v20 (ix2 (0 : Fin 1) (0 : Fin 1)) * linBlk v0 v2 v4 v9 v11 v15 p q) := by
  have hlin : addf (addf (matmul DD none (truncf .bf16 (mulf (shapeCast S5000x128 v2 shapeCasts_S5000x128_S5000x128)
        (broadcastTo S5000x128 (shapeCast S5000x1 v4 shapeCasts_S5000x1_S5000x1) broadcasts_S5000x1_S5000x128)) bitsLt_bf16_f32)
        (truncf .bf16 v9 bitsLt_bf16_f32) (constant (F := Ideal) S5000x128 .f32 0x00000000#32))
        (broadcastTo S5000x128 (shapeCast S1x128 v15 shapeCasts_S1x128_S1x128) broadcasts_S1x128_S5000x128))
        (matmul DD none (truncf .bf16 v0 bitsLt_bf16_f32) (truncf .bf16 v11 bitsLt_bf16_f32)
          (constant (F := Ideal) S5000x128 .f32 0x00000000#32)) (ix2 p q) = linBlk v0 v2 v4 v9 v11 v15 p q := by
    unfold linBlk
    rw [addf_apply, addf_apply]
    refine congrArg₂ (· + ·) (congrArg₂ (· + ·) ?_ (bias_at v15 p q)) ?_
    · refine (matmul_at _ _ p q).trans (Finset.sum_congr rfl fun k _ => ?_)
      rw [truncf_apply, truncf_apply]
      exact congrArg (· * v9 (ix2 q k)) (scaled_at v2 v4 p k)
    · refine (matmul_at _ _ p q).trans (Finset.sum_congr rfl fun k _ => ?_)
      rw [truncf_apply, truncf_apply]
  have ha : extractAt ![0, 0] v20 inpos_S1x1_p0_0 = v20 (ix2 (0 : Fin 1) (0 : Fin 1)) :=
    congrArg v20 (funext fun a => Fin.ext (by match a with | ⟨0, _⟩ => rfl | ⟨1, _⟩ => rfl))
  unfold k0_pay1
  rw [select_apply, cmpf_apply, mulf_apply, broadcast_apply, broadcast_apply, hlin, ha]
  rfl

/-- A first-layer step against whole arrays. If the loaded blocks hold, at the coordinates entry (p, q) reads, what
    the whole arrays hold at the row and column of the array index `i`, then the stored entry is the first layer's
    value at `i`. -/
theorem step0_eq (x agg : Vec Ideal S5000x128 .f32) (inv : Vec Ideal S5000x1 .f32) (wl wr : Vec Ideal S128x128 .f32)
    (b : Vec Ideal S1x128 .f32) (a : Vec Ideal S1x1 .f32)
    (X AGG : Cert.Sage.SN128.Idx → EReal) (ρ : Fin 100000 → EReal) (WL WR : Cert.Sage.SW.Idx → EReal) (B : Fin 128 → EReal)
    (A : EReal) (i : Cert.Sage.SN128.Idx) (p : Fin 5000) (q : Fin 128)
    (h0 : ∀ k : Fin 128, x (ix2 p k) = X (ix2 (i 0) k)) (h1 : ∀ k : Fin 128, agg (ix2 p k) = AGG (ix2 (i 0) k))
    (h2 : inv (ix2 p (0 : Fin 1)) = ρ (i 0)) (h3 : ∀ k : Fin 128, wl (ix2 q k) = WL (ix2 (i 1) k))
    (h4 : b (ix2 (0 : Fin 1) q) = B (i 1)) (h5 : ∀ k : Fin 128, wr (ix2 q k) = WR (ix2 (i 1) k))
    (h6 : a (ix2 (0 : Fin 1) (0 : Fin 1)) = A) :
    k0_pay1 (F := Ideal) x agg inv wl wr b a (ix2 p q)
      = Cert.Sage.prelu A (Cert.Sage.lin (Cert.Sage.meanMul AGG ρ) X WL WR B) i := by
  have hl : linBlk x agg inv wl wr b p q = Cert.Sage.lin (Cert.Sage.meanMul AGG ρ) X WL WR B i := by
    unfold linBlk Cert.Sage.lin Cert.Sage.meanMul
    simp only [h0, h1, h2, h3, h4, h5]
  rw [pay0_at, hl, h6]
  rfl

/-- A second-layer step against whole arrays: the same, without the rectifier. -/
theorem step1_eq (x agg : Vec Ideal S5000x128 .f32) (inv : Vec Ideal S5000x1 .f32) (wl wr : Vec Ideal S128x128 .f32)
    (b : Vec Ideal S1x128 .f32)
    (X AGG : Cert.Sage.SN128.Idx → EReal) (ρ : Fin 100000 → EReal) (WL WR : Cert.Sage.SW.Idx → EReal) (B : Fin 128 → EReal)
    (i : Cert.Sage.SN128.Idx) (p : Fin 5000) (q : Fin 128)
    (h0 : ∀ k : Fin 128, x (ix2 p k) = X (ix2 (i 0) k)) (h1 : ∀ k : Fin 128, agg (ix2 p k) = AGG (ix2 (i 0) k))
    (h2 : inv (ix2 p (0 : Fin 1)) = ρ (i 0)) (h3 : ∀ k : Fin 128, wl (ix2 q k) = WL (ix2 (i 1) k))
    (h4 : b (ix2 (0 : Fin 1) q) = B (i 1)) (h5 : ∀ k : Fin 128, wr (ix2 q k) = WR (ix2 (i 1) k)) :
    k1_pay1 (F := Ideal) x agg inv wl wr b (ix2 p q)
      = Cert.Sage.lin (Cert.Sage.meanMul AGG ρ) X WL WR B i := by
  rw [pay1_at]
  unfold linBlk Cert.Sage.lin Cert.Sage.meanMul
  simp only [h0, h1, h2, h3, h4, h5]

end Cert.KernelIdeal.Body

end
-- ==== Proof.Region0.lean ====
/-
  The first layer's pallas region as ONE function of the arrays it is entered with.

  The region walks 20 grid points; point t stages rows 5000·t … 5000·t + 4999 of the node features, of the neighbour
  sums and of the reciprocal in-degree column, together with the whole of the two weight matrices, the bias row and
  the slope, and writes back rows 5000·t … 5000·t + 4999 of the result. Every operand window moves with the output
  window along the rows and stays put along the columns, so the entry (p, q) of point t's block is the first
  layer's value at array index (5000·t + p, q); the 20 blocks tile the 100000 rows (row r lies in block r / 5000),
  so the result array ends as that function everywhere.
-/
import proofs.«123286_j5995774345966_2_alg».proof.Proof.Gen.KernelIdeal.Frame
import proofs.«123286_j5995774345966_2_alg».proof.Proof.Body

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen Cert.KernelIdeal.Body
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The first layer of the region's operand arrays as the region finds them: rectifier of the linear part, the mean
    taken by the reciprocal column, the bias read off its 1 × 128 row, the slope off its 1 × 1 cell. -/
def G (c : Dev nD) : Cert.Sage.SN128.Idx → EReal :=
  Cert.Sage.prelu ((V c main_v24 : S1x1.Idx → EReal) (ix2 (0 : Fin 1) (0 : Fin 1)))
    (Cert.Sage.lin
      (Cert.Sage.meanMul (V c main_v22 : S100000x128.Idx → EReal)
        (fun r : Fin 100000 => (V c main_v12 : S100000x1.Idx → EReal) (ix2 r (0 : Fin 1))))
      (V c main_arg0 : S100000x128.Idx → EReal) (V c main_arg2 : S128x128.Idx → EReal) (V c main_arg4 : S128x128.Idx → EReal)
      (fun j : Fin 128 => (V c main_v23 : S1x128.Idx → EReal) (ix2 (0 : Fin 1) j)))

/-- The printed index maps, decided over the 20 points: the three row-blocked operands move with the output along
    the rows, everything else sits at block (0, 0), and the output's row block is the point's number. -/
theorem idx_facts : ∀ t : Fin cfg0.N,
      win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- WHAT POINT t WRITES BACK is block t of the first layer of the entry arrays. -/
theorem flushed_eq (c : Dev nD) (t : Fin cfg0.N) :
    (dat0 V c).flushed 7 t = ((cfg0.win 7).blk t).view.read (Elt Ideal) (G V c) := by
  show (cfg0.win 7).cut (grid0.coords t) ((dat0 V c).after 7 t) = _
  rw [after0_7]
  unfold out0_7
  rw [View.canon_unit_zero hz]
  simp only [View.ld_unit_zero (S := S5000x128) hz, View.ld_unit_zero (S := S5000x1) hz,
    View.ld_unit_zero (S := S128x128) hz, View.ld_unit_zero (S := S1x128) hz, View.ld_unit_zero (S := S1x1) hz]
  obtain ⟨e00, e01, e10, e11, e20, e21, e30, e31, e40, e41, e50, e51, e60, e61, e70, e71⟩ := idx_facts t
  funext j
  obtain ⟨p, q, rfl⟩ : ∃ (p : Fin 5000) (q : Fin 128), j = ix2 p q := ⟨j 0, j 1, eq_ix2 j⟩
  show k0_pay1 (F := Ideal) (iblk0 V c 0 t) (iblk0 V c 1 t) (iblk0 V c 2 t) (iblk0 V c 3 t) (iblk0 V c 5 t) (iblk0 V c 4 t)
      (iblk0 V c 6 t) (ix2 p q) = G V c (((cfg0.win 7).blk t).view.emb (ix2 p q))
  unfold G
  refine step0_eq _ _ _ _ _ _ _ _ _ _ _ _ _ _ (((cfg0.win 7).blk t).view.emb (ix2 p q)) p q ?_ ?_ ?_ ?_ ?_ ?_ ?_
  · intro k
    show (V c main_arg0 : S100000x128.Idx → EReal) (((cfg0.win 0).blk t).view.emb (ix2 p k)) = _
    refine congrArg _ (funext fun a => Fin.ext ?_)
    match a with
    | ⟨0, _⟩ => show win0_0.index t (0 : Fin 2) * 5000 + 1 * p.val = win0_7.index t (0 : Fin 2) * 5000 + 1 * p.val; omega
    | ⟨1, _⟩ => show win0_0.index t (1 : Fin 2) * 128 + 1 * k.val = k.val; omega
  · intro k
    show (V c main_v22 : S100000x128.Idx → EReal) (((cfg0.win 1).blk t).view.emb (ix2 p k)) = _
    refine congrArg _ (funext fun a => Fin.ext ?_)
    match a with
    | ⟨0, _⟩ => show win0_1.index t (0 : Fin 2) * 5000 + 1 * p.val = win0_7.index t (0 : Fin 2) * 5000 + 1 * p.val; omega
    | ⟨1, _⟩ => show win0_1.index t (1 : Fin 2) * 128 + 1 * k.val = k.val; omega
  · show (V c main_v12 : S100000x1.Idx → EReal) (((cfg0.win 2).blk t).view.emb (ix2 p (0 : Fin 1))) = _
    refine congrArg _ (funext fun a => Fin.ext ?_)
    match a with
    | ⟨0, _⟩ => show win0_2.index t (0 : Fin 2) * 5000 + 1 * p.val = win0_7.index t (0 : Fin 2) * 5000 + 1 * p.val; omega
    | ⟨1, _⟩ => show win0_2.index t (1 : Fin 2) * 1 + 1 * 0 = 0; omega
  · intro k
    show (V c main_arg2 : S128x128.Idx → EReal) (((cfg0.win 3).blk t).view.emb (ix2 q k)) = _
    refine congrArg _ (funext fun a => Fin.ext ?_)
    match a with
    | ⟨0, _⟩ => show win0_3.index t (0 : Fin 2) * 128 + 1 * q.val = win0_7.index t (1 : Fin 2) * 128 + 1 * q.val; omega
    | ⟨1, _⟩ => show win0_3.index t (1 : Fin 2) * 128 + 1 * k.val = k.val; omega
  · show (V c main_v23 : S1x128.Idx → EReal) (((cfg0.win 4).blk t).view.emb (ix2 (0 : Fin 1) q)) = _
    refine congrArg _ (funext fun a => Fin.ext ?_)
    match a with
    | ⟨0, _⟩ => show win0_4.index t (0 : Fin 2) * 1 + 1 * 0 = 0; omega
    | ⟨1, _⟩ => show win0_4.index t (1 : Fin 2) * 128 + 1 * q.val = win0_7.index t (1 : Fin 2) * 128 + 1 * q.val; omega
  · intro k
    show (V c main_arg4 : S128x128.Idx → EReal) (((cfg0.win 5).blk t).view.emb (ix2 q k)) = _
    refine congrArg _ (funext fun a => Fin.ext ?_)
    match a with
    | ⟨0, _⟩ => show win0_5.index t (0 : Fin 2) * 128 + 1 * q.val = win0_7.index t (1 : Fin 2) * 128 + 1 * q.val; omega
    | ⟨1, _⟩ => show win0_5.index t (1 : Fin 2) * 128 + 1 * k.val = k.val; omega
  · show (V c main_v24 : S1x1.Idx → EReal) (((cfg0.win 6).blk t).view.emb (ix2 (0 : Fin 1) (0 : Fin 1))) = _
    refine congrArg _ (funext fun a => Fin.ext ?_)
    match a with
    | ⟨0, _⟩ => show win0_6.index t (0 : Fin 2) * 1 + 1 * 0 = 0; omega
    | ⟨1, _⟩ => show win0_6.index t (1 : Fin 2) * 1 + 1 * 0 = 0; omega

/-- An index of the result array is in point t's block iff each coordinate is in the block's range on its axis. -/
theorem mem_blk (t : Fin cfg0.N) (i : S100000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v25).slice (win0_7.rect t)).set ↔ _
  rw [View.set_slice_whole, Rect.mem_set_unit]
  exact Iff.rfl

/-- The 20 row blocks tile the array: row r is in the block of point r / 5000. -/
theorem cover (i : S100000x128.Idx) :
    ∃ t : Fin cfg0.N, (cfg0.win 7).flush t = true ∧ i ∈ ((cfg0.win 7).blk t).view.set := by
  have hi0 : (i 0).val < 100000 := (i 0).isLt
  have hi1 : (i 1).val < 128 := (i 1).isLt
  have hN : cfg0.N = 20 := N_0
  let t : Fin cfg0.N := ⟨(i 0).val / 5000, by rw [hN]; omega⟩
  obtain ⟨-, -, -, -, -, -, -, -, -, -, -, -, -, -, e70, e71⟩ := idx_facts t
  have ht : t.val = (i 0).val / 5000 := rfl
  refine ⟨t, flush0_7 t, ?_⟩
  rw [mem_blk]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 128 ≤ (i 1).val ∧ (i 1).val < win0_7.index t (1 : Fin 2) * 128 + 128; omega

/-- THE RESULT ARRAY after the region: the first layer of the arrays the region was entered with. -/
theorem final (c : Dev nD) : (dat0 V c).arrAt 7 cfg0.N = G V c :=
  (dat0 V c).arrAt_eq_of_cover 7 (G V c) (fun t _ => flushed_eq V c t) cover

end Cert.KernelIdeal.Region0

end
-- ==== Proof.Region1.lean ====
/-
  The second layer's pallas region as ONE function of the arrays it is entered with.

  The same walk as the first layer's region: 20 points, point t staging rows 5000·t … 5000·t + 4999 of the hidden
  features, of their neighbour sums and of the reciprocal in-degree column, with the whole of the second layer's two
  weight matrices and bias row, and writing back the same rows of the result. There is no rectifier: entry (p, q) of
  point t's block is the layer's linear part at array index (5000·t + p, q), and the 20 blocks tile the rows.
-/
import proofs.«123286_j5995774345966_2_alg».proof.Proof.Gen.KernelIdeal.Frame
import proofs.«123286_j5995774345966_2_alg».proof.Proof.Body

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen Cert.KernelIdeal.Body
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The second layer of the region's operand arrays as the region finds them: the linear part, the mean taken by
    the reciprocal column, the bias read off its 1 × 128 row. -/
def G (c : Dev nD) : Cert.Sage.SN128.Idx → EReal :=
  Cert.Sage.lin
    (Cert.Sage.meanMul (V c main_v35 : S100000x128.Idx → EReal)
      (fun r : Fin 100000 => (V c main_v12 : S100000x1.Idx → EReal) (ix2 r (0 : Fin 1))))
    (V c main_v25 : S100000x128.Idx → EReal) (V c main_arg5 : S128x128.Idx → EReal) (V c main_arg7 : S128x128.Idx → EReal)
    (fun j : Fin 128 => (V c main_v36 : S1x128.Idx → EReal) (ix2 (0 : Fin 1) j))

/-- The printed index maps, decided over the 20 points: the three row-blocked operands move with the output along
    the rows, everything else sits at block (0, 0), and the output's row block is the point's number. -/
theorem idx_facts : ∀ t : Fin cfg1.N,
      win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- WHAT POINT t WRITES BACK is block t of the second layer of the entry arrays. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz,
    View.ld_unit_zero (S := S128x128) hz, View.ld_unit_zero (S := S1x128) hz]
  obtain ⟨e00, e01, e10, e11, e20, e21, e30, e31, e40, e41, e50, e51, e60, e61⟩ := idx_facts t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 5 t) (iblk1 V c 4 t)
      (ix2 p q) = G V c (((cfg1.win 6).blk t).view.emb (ix2 p q))
  unfold G
  refine step1_eq _ _ _ _ _ _ _ _ _ _ _ _ (((cfg1.win 6).blk t).view.emb (ix2 p q)) p q ?_ ?_ ?_ ?_ ?_ ?_
  · intro k
    show (V c main_v25 : S100000x128.Idx → EReal) (((cfg1.win 0).blk t).view.emb (ix2 p k)) = _
    refine congrArg _ (funext fun a => Fin.ext ?_)
    match a with
    | ⟨0, _⟩ => show win1_0.index t (0 : Fin 2) * 5000 + 1 * p.val = win1_6.index t (0 : Fin 2) * 5000 + 1 * p.val; omega
    | ⟨1, _⟩ => show win1_0.index t (1 : Fin 2) * 128 + 1 * k.val = k.val; omega
  · intro k
    show (V c main_v35 : S100000x128.Idx → EReal) (((cfg1.win 1).blk t).view.emb (ix2 p k)) = _
    refine congrArg _ (funext fun a => Fin.ext ?_)
    match a with
    | ⟨0, _⟩ => show win1_1.index t (0 : Fin 2) * 5000 + 1 * p.val = win1_6.index t (0 : Fin 2) * 5000 + 1 * p.val; omega
    | ⟨1, _⟩ => show win1_1.index t (1 : Fin 2) * 128 + 1 * k.val = k.val; omega
  · show (V c main_v12 : S100000x1.Idx → EReal) (((cfg1.win 2).blk t).view.emb (ix2 p (0 : Fin 1))) = _
    refine congrArg _ (funext fun a => Fin.ext ?_)
    match a with
    | ⟨0, _⟩ => show win1_2.index t (0 : Fin 2) * 5000 + 1 * p.val = win1_6.index t (0 : Fin 2) * 5000 + 1 * p.val; omega
    | ⟨1, _⟩ => show win1_2.index t (1 : Fin 2) * 1 + 1 * 0 = 0; omega
  · intro k
    show (V c main_arg5 : S128x128.Idx → EReal) (((cfg1.win 3).blk t).view.emb (ix2 q k)) = _
    refine congrArg _ (funext fun a => Fin.ext ?_)
    match a with
    | ⟨0, _⟩ => show win1_3.index t (0 : Fin 2) * 128 + 1 * q.val = win1_6.index t (1 : Fin 2) * 128 + 1 * q.val; omega
    | ⟨1, _⟩ => show win1_3.index t (1 : Fin 2) * 128 + 1 * k.val = k.val; omega
  · show (V c main_v36 : S1x128.Idx → EReal) (((cfg1.win 4).blk t).view.emb (ix2 (0 : Fin 1) q)) = _
    refine congrArg _ (funext fun a => Fin.ext ?_)
    match a with
    | ⟨0, _⟩ => show win1_4.index t (0 : Fin 2) * 1 + 1 * 0 = 0; omega
    | ⟨1, _⟩ => show win1_4.index t (1 : Fin 2) * 128 + 1 * q.val = win1_6.index t (1 : Fin 2) * 128 + 1 * q.val; omega
  · intro k
    show (V c main_arg7 : S128x128.Idx → EReal) (((cfg1.win 5).blk t).view.emb (ix2 q k)) = _
    refine congrArg _ (funext fun a => Fin.ext ?_)
    match a with
    | ⟨0, _⟩ => show win1_5.index t (0 : Fin 2) * 128 + 1 * q.val = win1_6.index t (1 : Fin 2) * 128 + 1 * q.val; omega
    | ⟨1, _⟩ => show win1_5.index t (1 : Fin 2) * 128 + 1 * k.val = k.val; omega

/-- An index of the result array is in point t's block iff each coordinate is in the block's range on its axis. -/
theorem mem_blk (t : Fin cfg1.N) (i : S100000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v37).slice (win1_6.rect t)).set ↔ _
  rw [View.set_slice_whole, Rect.mem_set_unit]
  exact Iff.rfl

/-- The 20 row blocks tile the array: row r is in the block of point r / 5000. -/
theorem cover (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨-, -, -, -, -, -, -, -, -, -, -, -, e60, e61⟩ := idx_facts t
  have ht : t.val = (i 0).val / 5000 := rfl
  refine ⟨t, flush1_6 t, ?_⟩
  rw [mem_blk]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- THE RESULT ARRAY after the region: the second layer of the arrays the region was entered with. -/
theorem final (c : Dev nD) : (dat1 V c).arrAt 6 cfg1.N = G V c :=
  (dat1 V c).arrAt_eq_of_cover 6 (G V c) (fun t _ => flushed_eq V c t) cover

end Cert.KernelIdeal.Region1

end
-- ==== Proof.RegionAt.lean ====
/-
  Each region's whole-array function, rewritten by what its operand arrays ARE.

  Stated at an arbitrary assignment `V` of contents to buffers: if the seven (six) operand arrays of a region hold
  the given features, neighbour sums, reciprocal column, weights, reshaped bias and reshaped slope, then the region's
  function is the layer of those. A bias vector reshaped to a 1 × 128 row is read at (0, j) as its entry j, and a
  scalar reshaped to a 1 × 1 cell is read at (0, 0) as itself.
-/
import proofs.«123286_j5995774345966_2_alg».proof.Proof.Region0
import proofs.«123286_j5995774345966_2_alg».proof.Proof.Region1
import proofs.«123286_j5995774345966_2_alg».proof.Proof.HostDefs
import Idealize.ShloMosaic.Lib.ValueLayout

set_option maxRecDepth 16384

noncomputable section

namespace Cert.KernelIdeal.Fold

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b)) (c : Dev nD)

/-- A bias vector reshaped to one row, read along the row. -/
theorem bias_row (b : (⟨S128, .f32⟩ : BufTy).Contents (Elt Ideal)) :
    (fun j : Fin 128 => shapeCast S1x128 b shapeCasts_S128_S1x128 (ix2 (0 : Fin 1) j)) = biasOf b :=
  funext fun j => shapeCast_a_1a_apply _ _ _ _

/-- A scalar reshaped to one cell, read at the cell. -/
theorem slope_cell (a : (⟨S_, .f32⟩ : BufTy).Contents (Elt Ideal)) :
    shapeCast S1x1 a shapeCasts_S_S1x1 (ix2 (0 : Fin 1) (0 : Fin 1)) = a ix0 :=
  shapeCast_apply _ _ _ _ rfl

/-- The first region's function, of what its operand arrays hold. -/
theorem G0_of (X AGG : (⟨S100000x128, .f32⟩ : BufTy).Contents (Elt Ideal)) (INV : (⟨S100000x1, .f32⟩ : BufTy).Contents (Elt Ideal))
    (WL WR : (⟨S128x128, .f32⟩ : BufTy).Contents (Elt Ideal)) (b : (⟨S128, .f32⟩ : BufTy).Contents (Elt Ideal))
    (a : (⟨S_, .f32⟩ : BufTy).Contents (Elt Ideal))
    (h0 : V c main_arg0 = X) (h1 : V c main_v22 = AGG) (h2 : V c main_v12 = INV) (h3 : V c main_arg2 = WL)
    (h4 : V c main_arg4 = WR) (h5 : V c main_v23 = shapeCast S1x128 b shapeCasts_S128_S1x128)
    (h6 : V c main_v24 = shapeCast S1x1 a shapeCasts_S_S1x1) :
    Region0.G V c = Cert.Sage.prelu (a ix0)
      (Cert.Sage.lin (Cert.Sage.meanMul AGG (fun r : Fin 100000 => INV (ix2 r (0 : Fin 1)))) X WL WR (biasOf b)) := by
  unfold Region0.G
  rw [h0, h1, h2, h3, h4, h5, h6, bias_row, slope_cell]

/-- The second region's function, of what its operand arrays hold. -/
theorem G1_of (H AGG : (⟨S100000x128, .f32⟩ : BufTy).Contents (Elt Ideal)) (INV : (⟨S100000x1, .f32⟩ : BufTy).Contents (Elt Ideal))
    (WL WR : (⟨S128x128, .f32⟩ : BufTy).Contents (Elt Ideal)) (b : (⟨S128, .f32⟩ : BufTy).Contents (Elt Ideal))
    (h0 : V c main_v25 = H) (h1 : V c main_v35 = AGG) (h2 : V c main_v12 = INV) (h3 : V c main_arg5 = WL)
    (h4 : V c main_arg7 = WR) (h5 : V c main_v36 = shapeCast S1x128 b shapeCasts_S128_S1x128) :
    Region1.G V c = Cert.Sage.lin (Cert.Sage.meanMul AGG (fun r : Fin 100000 => INV (ix2 r (0 : Fin 1)))) H WL WR (biasOf b) := by
  unfold Region1.G
  rw [h0, h1, h2, h3, h4, h5, bias_row]

end Cert.KernelIdeal.Fold

end
-- ==== Proof.Entry1.lean ====
/-
  The hidden features, the second stretch of host operations, and the kernel program's result.

  The first region is entered with the node features, `seg` of them and `inv`; its result array is the hidden
  features. The second stretch gathers from THAT array, so the second region is entered with the hidden features,
  `seg` of them, and the same `inv` (computed once). Its result array is the second layer of the hidden features,
  which is the two-layer network in the multiply-by-reciprocal form.
-/
import proofs.«123286_j5995774345966_2_alg».proof.Proof.Gen.KernelIdeal.Frame
import proofs.«123286_j5995774345966_2_alg».proof.Proof.HostDefs
import proofs.«123286_j5995774345966_2_alg».proof.Proof.Entry0a
import proofs.«123286_j5995774345966_2_alg».proof.Proof.Entry0b
import proofs.«123286_j5995774345966_2_alg».proof.Proof.RegionAt
import Idealize.ShloMosaic.Lib.StableHlo.Run

set_option maxRecDepth 16384

noncomputable section

namespace Cert.KernelIdeal.Fold

open Idealize.ShloMosaic Idealize.ShloMosaic.TcCoe Idealize.ShloMosaic.ValueIdx Idealize.SL.Sem Idealize.ShloMosaic.StableHlo
open Cert.KernelIdeal Cert.KernelIdeal.Gen
open Idealize.ShloMosaic.Pipeline (Dat)

variable (m : (ℓ : Loc nD τ sig) → Buf (Elt Ideal) ℓ) (ρ : Dev nD → PrngReg) (c : Dev nD)

/-- THE HIDDEN FEATURES: the first layer of the node features. -/
def hidden : Cert.Sage.SN128.Idx → EReal :=
  Cert.Sage.prelu ((m ((c : Thread nD τ).loc main_arg8) : S_.Idx → EReal) ix0)
    (Cert.Sage.lin
      (Cert.Sage.meanMul (seg (m ((c : Thread nD τ).loc main_arg1)) (m ((c : Thread nD τ).loc main_arg0)))
        (fun r : Fin 100000 => inv (m ((c : Thread nD τ).loc main_arg1)) (ix2 r (0 : Fin 1))))
      (m ((c : Thread nD τ).loc main_arg0)) (m ((c : Thread nD τ).loc main_arg2)) (m ((c : Thread nD τ).loc main_arg4))
      (biasOf (m ((c : Thread nD τ).loc main_arg3))))

/-- The first region's result array is the hidden features. -/
theorem region0_result : (dat0 (V1 m ρ) c).arrAt 7 cfg0.N = hidden m c :=
  (Region0.final (V1 m ρ) c).trans
    (G0_of (V1 m ρ) c _ _ _ _ _ _ _ (W1_arg0 m ρ c) (W1_v22 m ρ c) (W1_v12 m ρ c) (W1_arg2 m ρ c) (W1_arg4 m ρ c)
      (W1_v23 m ρ c) (W1_v24 m ρ c))

/-! ## At the first region's exit, and after the second stretch -/

theorem W2_v25 : W2 m ρ c (Proc.devRef .tc main_v25) = hidden m c :=
  (W2_arr m ρ c 7).trans (region0_result m ρ c)
theorem W2_v1 : W2 m ρ c (Proc.devRef .tc main_v1) = src (m ((c : Thread nD τ).loc main_arg1)) :=
  (W2_of_ne m ρ c main_v1 (by decide)).trans (W1_v1 m ρ c)
theorem W2_v3 : W2 m ρ c (Proc.devRef .tc main_v3) = dst (m ((c : Thread nD τ).loc main_arg1)) :=
  (W2_of_ne m ρ c main_v3 (by decide)).trans (W1_v3 m ρ c)
theorem W2_v12 : W2 m ρ c (Proc.devRef .tc main_v12) = inv (m ((c : Thread nD τ).loc main_arg1)) :=
  (W2_arr m ρ c 2).trans ((((dat0 (V1 m ρ) c).arrAt_in 2 rfl _).trans (A_eq0 (V1 m ρ) c 2)).trans (W1_v12 m ρ c))
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)

theorem W3_v25 : W3 m ρ c (Proc.devRef .tc main_v25) = hidden m c := by
  after_results
  exact W2_v25 m ρ c
theorem W3_v12 : W3 m ρ c (Proc.devRef .tc main_v12) = inv (m ((c : Thread nD τ).loc main_arg1)) := by
  after_results
  exact W2_v12 m ρ c
theorem W3_arg5 : W3 m ρ c (Proc.devRef .tc main_arg5) = m ((c : Thread nD τ).loc main_arg5) := by
  after_results
  exact W2_arg5 m ρ c
theorem W3_arg7 : W3 m ρ c (Proc.devRef .tc main_arg7) = m ((c : Thread nD τ).loc main_arg7) := by
  after_results
  exact W2_arg7 m ρ c
theorem W3_v36 : W3 m ρ c (Proc.devRef .tc main_v36)
    = shapeCast S1x128 (m ((c : Thread nD τ).loc main_arg6)) shapeCasts_S128_S1x128 := by
  after_results
  rw [W2_arg6]
  rfl
theorem W3_v35 : W3 m ρ c (Proc.devRef .tc main_v35) = seg (m ((c : Thread nD τ).loc main_arg1)) (hidden m c) := by
  after_results
  rw [W2_v25, W2_v1, W2_v3]
  generalize hidden m c = H
  rfl

/-- THE RESULT of the kernel program: the second layer of the hidden features. -/
def result : Cert.Sage.SN128.Idx → EReal :=
  Cert.Sage.lin
    (Cert.Sage.meanMul (seg (m ((c : Thread nD τ).loc main_arg1)) (hidden m c))
      (fun r : Fin 100000 => inv (m ((c : Thread nD τ).loc main_arg1)) (ix2 r (0 : Fin 1))))
    (hidden m c) (m ((c : Thread nD τ).loc main_arg5)) (m ((c : Thread nD τ).loc main_arg7))
    (biasOf (m ((c : Thread nD τ).loc main_arg6)))

/-- The second region's result array is the second layer of the hidden features. -/
theorem region1_result : (dat1 (V3 m ρ) c).arrAt 6 cfg1.N = result m c :=
  (Region1.final (V3 m ρ) c).trans
    (G1_of (V3 m ρ) c _ _ _ _ _ _ (W3_v25 m ρ c) (W3_v35 m ρ c) (W3_v12 m ρ c) (W3_arg5 m ρ c) (W3_arg7 m ρ c) (W3_v36 m ρ c))

/-- The result is the two-layer network in the multiply-by-reciprocal form, the reciprocal being one over the clamped
    in-degree. -/
theorem result_eq_netMul : result m c
    = Cert.Sage.netMul (seg (m ((c : Thread nD τ).loc main_arg1)))
        (fun r : Fin 100000 => Ideal.div Cert.Sage.one (max (cnt (m ((c : Thread nD τ).loc main_arg1)) (ix1 r)) Cert.Sage.one))
        (m ((c : Thread nD τ).loc main_arg0)) (m ((c : Thread nD τ).loc main_arg2)) (m ((c : Thread nD τ).loc main_arg4))
        (m ((c : Thread nD τ).loc main_arg5)) (m ((c : Thread nD τ).loc main_arg7))
        (biasOf (m ((c : Thread nD τ).loc main_arg3))) (biasOf (m ((c : Thread nD τ).loc main_arg6)))
        ((m ((c : Thread nD τ).loc main_arg8) : S_.Idx → EReal) ix0) := by
  have hinv : (fun r : Fin 100000 => inv (m ((c : Thread nD τ).loc main_arg1)) (ix2 r (0 : Fin 1)))
      = fun r : Fin 100000 => Ideal.div Cert.Sage.one (max (cnt (m ((c : Thread nD τ).loc main_arg1)) (ix1 r)) Cert.Sage.one) :=
    funext fun r => inv_apply _ r
  unfold result hidden Cert.Sage.netMul
  rw [hinv]

end Cert.KernelIdeal.Fold

end
-- ==== Proof.RefValue.lean ====
/-
  The reference program's result as two layers in the divide-by-in-degree form.

  The reference takes, per layer, the neighbour sums of the layer's input (source rows gathered, added into
  destination rows), divides row r by max(in-degree of r, 1), multiplies by the transposed aggregation weights, adds
  the bias, and adds the input times the transposed root weights; the first layer's output goes through the
  parametric rectifier. A product with a transposed matrix contracts the matrix's second axis, so entry (r, j)
  sums mean[r, k] · W[j, k] over k: the same sum the kernel forms without a transpose. The gather and the scatter-add
  are kept as one function `seg` of the edge list and the in-degree as `cnt`; the second layer recomputes both
  from the same edge list, and the recomputed terms are the first layer's, operation for operation.
-/
import proofs.«123286_j5995774345966_2_alg».proof.Proof.Gen.ReferenceIdeal.Read
import proofs.«123286_j5995774345966_2_alg».proof.Proof.SageSpec
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

/-- The neighbour sum of a feature array: source rows gathered, added into the destination rows of zeros. -/
def seg (e : (⟨S2x1600000, .i32⟩ : BufTy).Contents (Elt Ideal)) (feat : (⟨S100000x128, .f32⟩ : BufTy).Contents (Elt Ideal)) : (⟨S100000x128, .f32⟩ : BufTy).Contents (Elt Ideal) :=
  Host.scatterAdd (F := Ideal) (φ := .f32) scatter_S100000x128_S1600000x1_S1600000x128_1_0_0_1 (val_main_v11 (F := Ideal))
    (val_main_v12 (F := Ideal) e)
    (Host.gather (α := Ideal .f32) gather_S100000x128_S1600000x1_S1600000x128_1_0_n_n_0_1_1128 feat (val_main_v9 (F := Ideal) e))

/-- The in-degree of every node. -/
def cnt (e : (⟨S2x1600000, .i32⟩ : BufTy).Contents (Elt Ideal)) : (⟨S100000, .f32⟩ : BufTy).Contents (Elt Ideal) := val_main_v17 (F := Ideal) e

/-- The bias of a layer, read off its vector. -/
def biasOf (b : (⟨S128, .f32⟩ : BufTy).Contents (Elt Ideal)) : Fin 128 → EReal := fun j => b (ix1 j)

/-! ## Index equations: the generated index maps at coordinates -/

theorem l24 (i : S100000x128.Idx) (k : Fin 128) : lidx_main_v24 i k = ix2 (i 0) k :=
  funext fun a => Fin.ext (by match a with | ⟨0, _⟩ => rfl | ⟨1, _⟩ => rfl)
theorem r24 (i : S100000x128.Idx) (k : Fin 128) : idx_main_v23 (ridx_main_v24 i k) = ix2 (i 1) k :=
  funext fun a => Fin.ext (by match a with | ⟨0, _⟩ => rfl | ⟨1, _⟩ => rfl)
theorem c21 (j : S100000x128.Idx) : idx_main_v20 (idx_main_v21 j) = ix1 (j 0) :=
  funext fun a => Fin.ext (by match a with | ⟨0, _⟩ => rfl)
theorem b26 (i : S100000x128.Idx) : idx_main_v25 (idx_main_v26 i) = ix1 (i 1) :=
  funext fun a => Fin.ext (by match a with | ⟨0, _⟩ => rfl)
theorem l29 (i : S100000x128.Idx) (k : Fin 128) : lidx_main_v29 i k = ix2 (i 0) k :=
  funext fun a => Fin.ext (by match a with | ⟨0, _⟩ => rfl | ⟨1, _⟩ => rfl)
theorem r29 (i : S100000x128.Idx) (k : Fin 128) : idx_main_v28 (ridx_main_v29 i k) = ix2 (i 1) k :=
  funext fun a => Fin.ext (by match a with | ⟨0, _⟩ => rfl | ⟨1, _⟩ => rfl)
theorem l56 (i : S100000x128.Idx) (k : Fin 128) : lidx_main_v56 i k = ix2 (i 0) k :=
  funext fun a => Fin.ext (by match a with | ⟨0, _⟩ => rfl | ⟨1, _⟩ => rfl)
theorem r56 (i : S100000x128.Idx) (k : Fin 128) : idx_main_v55 (ridx_main_v56 i k) = ix2 (i 1) k :=
  funext fun a => Fin.ext (by match a with | ⟨0, _⟩ => rfl | ⟨1, _⟩ => rfl)
theorem c53 (j : S100000x128.Idx) : idx_main_v52 (idx_main_v53 j) = ix1 (j 0) :=
  funext fun a => Fin.ext (by match a with | ⟨0, _⟩ => rfl)
theorem b58 (i : S100000x128.Idx) : idx_main_v57 (idx_main_v58 i) = ix1 (i 1) :=
  funext fun a => Fin.ext (by match a with | ⟨0, _⟩ => rfl)
theorem l61 (i : S100000x128.Idx) (k : Fin 128) : lidx_main_v61 i k = ix2 (i 0) k :=
  funext fun a => Fin.ext (by match a with | ⟨0, _⟩ => rfl | ⟨1, _⟩ => rfl)
theorem r61 (i : S100000x128.Idx) (k : Fin 128) : idx_main_v60 (ridx_main_v61 i k) = ix2 (i 1) k :=
  funext fun a => Fin.ext (by match a with | ⟨0, _⟩ => rfl | ⟨1, _⟩ => rfl)

section Layers

variable (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal)) (x7 : (⟨S128x128, .f32⟩ : BufTy).Contents (Elt Ideal)) (x8 : (⟨S_, .f32⟩ : BufTy).Contents (Elt Ideal))

/-- The first layer's neighbour sums are `seg` of the node features. -/
theorem v13_eq : val_main_v13 (F := Ideal) x0 x1 = seg x1 x0 := rfl

/-- The divisor of row r in the first layer: the clamped in-degree. -/
theorem v21_at (j : S100000x128.Idx) :
    val_main_v21 (F := Ideal) x1 j = max (cnt x1 (ix1 (j 0))) Cert.Sage.one := by
  rw [val_main_v21_apply, val_main_v20_apply, val_main_v19_apply, c21]
  rfl

/-- The first layer's linear part, entry by entry. -/
theorem v30_eq : val_main_v30 (F := Ideal) x0 x1 x2 x3 x4
    = Cert.Sage.lin (Cert.Sage.meanDiv (seg x1 x0) (fun r : Fin 100000 => max (cnt x1 (ix1 r)) Cert.Sage.one)) x0 x2 x4 (biasOf x3) := by
  funext i
  rw [val_main_v30_apply, val_main_v27_apply, val_main_v24_apply, val_main_v29_apply, val_main_v26_apply, val_main_v25_apply, b26]
  unfold Cert.Sage.lin Cert.Sage.meanDiv biasOf
  refine congrArg₂ (· + ·) (congrArg₂ (· + ·) (Finset.sum_congr rfl fun k _ => ?_) rfl) (Finset.sum_congr rfl fun k _ => ?_)
  · rw [val_main_v22_apply, val_main_v23_apply, v21_at, r24, l24, v13_eq]
    rfl
  · rw [val_main_v28_apply, r29, l29]
    rfl

/-- THE HIDDEN FEATURES of the reference: the first layer through the rectifier. -/
theorem v35_eq : val_main_v35 (F := Ideal) x0 x1 x2 x3 x4 x8
    = Cert.Sage.prelu (x8 ix0)
        (Cert.Sage.lin (Cert.Sage.meanDiv (seg x1 x0) (fun r : Fin 100000 => max (cnt x1 (ix1 r)) Cert.Sage.one)) x0 x2 x4 (biasOf x3)) := by
  funext i
  rw [val_main_v35_apply, val_main_v32_apply, val_main_v34_apply, val_main_v33_apply, val_main_v31_apply, v30_eq]
  rfl

/-- The second layer's neighbour sums are `seg` of the hidden features: the recomputed source and destination
    columns are the first layer's. -/
theorem v45_eq : val_main_v45 (F := Ideal) x0 x1 x2 x3 x4 x8 = seg x1 (val_main_v35 (F := Ideal) x0 x1 x2 x3 x4 x8) := rfl

/-- The divisor of row r in the second layer: the same clamped in-degree, recomputed. -/
theorem v53_at (j : S100000x128.Idx) :
    val_main_v53 (F := Ideal) x1 j = max (cnt x1 (ix1 (j 0))) Cert.Sage.one := by
  rw [val_main_v53_apply, val_main_v52_apply, val_main_v51_apply, c53]
  rfl

/-- THE RESULT of the reference: the second layer of its hidden features. -/
theorem v62_eq : val_main_v62 (F := Ideal) x0 x1 x2 x3 x4 x5 x6 x7 x8
    = Cert.Sage.netDiv (seg x1) (fun r : Fin 100000 => max (cnt x1 (ix1 r)) Cert.Sage.one) x0 x2 x4 x5 x7 (biasOf x3) (biasOf x6) (x8 ix0) := by
  unfold Cert.Sage.netDiv
  rw [← v35_eq x0 x1 x2 x3 x4 x8]
  funext i
  rw [val_main_v62_apply, val_main_v59_apply, val_main_v56_apply, val_main_v61_apply, val_main_v58_apply, val_main_v57_apply, b58]
  unfold Cert.Sage.lin Cert.Sage.meanDiv biasOf
  refine congrArg₂ (· + ·) (congrArg₂ (· + ·) (Finset.sum_congr rfl fun k _ => ?_) rfl) (Finset.sum_congr rfl fun k _ => ?_)
  · rw [val_main_v54_apply, val_main_v55_apply, v53_at, r56, l56, v45_eq]
    rfl
  · rw [val_main_v60_apply, r61, l61]
    rfl

end Layers

/-- The reference run's result term is the two-layer network in the divide form, of the launch contents. -/
theorem res_eq (m : (ℓ : Loc nD τ sig) → Buf (Elt Ideal) ℓ) (c : Dev nD) :
    Cert.ReferenceIdeal.Value.res_main_v62 m c
      = Cert.Sage.netDiv (seg (m ((c.tc : Thread nD τ).loc main_arg1)))
          (fun r : Fin 100000 => max (cnt (m ((c.tc : Thread nD τ).loc main_arg1)) (ix1 r)) Cert.Sage.one)
          (m ((c.tc : Thread nD τ).loc main_arg0)) (m ((c.tc : Thread nD τ).loc main_arg2)) (m ((c.tc : Thread nD τ).loc main_arg4))
          (m ((c.tc : Thread nD τ).loc main_arg5)) (m ((c.tc : Thread nD τ).loc main_arg7))
          (biasOf (m ((c.tc : Thread nD τ).loc main_arg3))) (biasOf (m ((c.tc : Thread nD τ).loc main_arg6)))
          ((m ((c.tc : Thread nD τ).loc main_arg8) : S_.Idx → EReal) ix0) :=
  (val_main_v62_eq (F := Ideal) m c).trans (v62_eq _ _ _ _ _ _ _ _ _)

end Cert.ReferenceIdeal.RefValue

end
-- ==== Proof.lean ====
/-
  A two-layer GraphSAGE network with mean aggregation over 100000 nodes of 128 features and 1600000 edges: the
  tiled kernel program against the plain array program, equal as extended reals entry by entry.

  Both programs form, per layer, the neighbour sums of the layer's input by one gather and one scatter-add on the
  host, and both clamp the in-degree below by one. They differ in how the mean is taken and where the dense part
  runs. The kernel program computes the reciprocal 1 / max(in-degree, 1) ONCE, as a column, and each of its two
  regions (20 row blocks of 5000 nodes) multiplies the block's neighbour sums by that column before two matrix
  products, the bias and (first layer) the parametric rectifier. The array program divides the neighbour sums by
  max(in-degree, 1), recomputing the in-degree in each layer, and multiplies by transposed weights.

  What joins them: x · (1 / c) = x / c for every extended real x whenever c ≠ 0, and c = max(in-degree, 1) ≥ 1. Both
  sides are the product x · c⁻¹, so the finiteness of the inputs is never used. Matrix products into a zero
  accumulator are plain sums over the 128 contracted columns on both sides (the kernel contracts the weights'
  second axis directly, the array program transposes first), changes of float format are the identity, and the
  row blocks tile the node axis. The gather and the scatter-add are the same operations of the same edge list on
  both sides and are never opened.

  The kernel program's idealization rewrote no operation, so that it is the kernel program's sanctioned
  idealization holds trivially; the three frames are the generated frame of each kernel program and the array
  program's run with its result dropped.
-/
import proofs.«123286_j5995774345966_2_alg».proof.Defs
import proofs.«123286_j5995774345966_2_alg».proof.Proof.Gen.Kernel
import proofs.«123286_j5995774345966_2_alg».proof.Proof.Gen.Kernel.Frame
import proofs.«123286_j5995774345966_2_alg».proof.Proof.Gen.KernelIdeal
import proofs.«123286_j5995774345966_2_alg».proof.Proof.Gen.KernelIdeal.Frame
import proofs.«123286_j5995774345966_2_alg».proof.Proof.Gen.ReferenceIdeal
import proofs.«123286_j5995774345966_2_alg».proof.Proof.Gen.Pre_finite_inputs
import proofs.«123286_j5995774345966_2_alg».proof.Proof.Gen.ReferenceIdeal.Run
import proofs.«123286_j5995774345966_2_alg».proof.Proof.Gen.ReferenceIdeal.Read
import proofs.«123286_j5995774345966_2_alg».proof.Proof.KernelRun
import proofs.«123286_j5995774345966_2_alg».proof.Proof.Entry1
import proofs.«123286_j5995774345966_2_alg».proof.Proof.RefValue
import proofs.«123286_j5995774345966_2_alg».proof.Proof.SageSpec

noncomputable section

namespace Cert.Proof

open Idealize.ShloMosaic Idealize.ShloMosaic.TcCoe Idealize.ShloMosaic.ValueIdx Idealize.SL.Sem

/-! ## The two programs' host chains are one -/

/-- The neighbour sum is the same function of the edge list and the features in both programs. -/
theorem seg_eq (e : (⟨Cert.KernelIdeal.S2x1600000, .i32⟩ : BufTy).Contents (Elt Ideal))
    (feat : (⟨Cert.KernelIdeal.S100000x128, .f32⟩ : BufTy).Contents (Elt Ideal)) :
    Cert.ReferenceIdeal.RefValue.seg e feat = Cert.KernelIdeal.Fold.seg e feat := rfl

/-- So is the in-degree. -/
theorem cnt_eq (e : (⟨Cert.KernelIdeal.S2x1600000, .i32⟩ : BufTy).Contents (Elt Ideal)) :
    Cert.ReferenceIdeal.RefValue.cnt e = Cert.KernelIdeal.Fold.cnt e := rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the second layer of the hidden features: the kernel program in the
    multiply-by-reciprocal form (its run, the two regions and the host operations between them), the array program in
    the divide form (its generated run, read operation by operation); the law makes the two forms one function. -/
theorem algebraic : Cert.algebraic_KernelIdeal_ReferenceIdeal := by
  intro m ρ m' ρ' _ hagree
  refine ⟨fun c => Cert.KernelIdeal.Fold.result m c, ?_, ?_⟩
  · exact (θ_run Cert.KernelIdeal.defs _ _).mono
      (fun r h c => ⟨(Cert.KernelIdeal.Run.result_eq m ρ r h c).trans (Cert.KernelIdeal.Fold.region1_result m ρ c),
        Cert.KernelIdeal.Run.kept m ρ r h c⟩)
      (Cert.KernelIdeal.Run.run_all (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    show Cert.ReferenceIdeal.Value.res_main_v62 m' c = Cert.KernelIdeal.Fold.result m c
    rw [Cert.ReferenceIdeal.RefValue.res_eq, h0, h1, h2, h3, h4, h5, h6, h7, h8, Cert.KernelIdeal.Fold.result_eq_netMul]
    refine Eq.trans ?_ (Cert.Sage.netMul_eq_netDiv (Cert.KernelIdeal.Fold.seg (m ((c.tc : Thread Cert.KernelIdeal.nD Cert.KernelIdeal.τ).loc Cert.KernelIdeal.main_arg1)))
      (fun r : Fin 100000 => Cert.KernelIdeal.Fold.cnt (m ((c.tc : Thread Cert.KernelIdeal.nD Cert.KernelIdeal.τ).loc Cert.KernelIdeal.main_arg1)) (ix1 r))
      _ _ _ _ _ _ _ _).symm
    have hs : Cert.ReferenceIdeal.RefValue.seg (m ((c.tc : Thread Cert.KernelIdeal.nD Cert.KernelIdeal.τ).loc Cert.KernelIdeal.main_arg1))
        = Cert.KernelIdeal.Fold.seg (m ((c.tc : Thread Cert.KernelIdeal.nD Cert.KernelIdeal.τ).loc Cert.KernelIdeal.main_arg1)) :=
      funext fun feat => seg_eq _ feat
    rw [hs, cnt_eq]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
